-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S512x128 : Shape := ⟨2, ![512, 128]⟩
abbrev S128 : Shape := ⟨1, ![128]⟩
abbrev S128x64 : Shape := ⟨2, ![128, 64]⟩
abbrev S64 : Shape := ⟨1, ![64]⟩
abbrev S800000 : Shape := ⟨1, ![800000]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S800000 : S_.BroadcastsInDim S800000 (![] : Fin 0 → Fin S800000.rank)
  reducesTo_S800000_S_d0 : S800000.ReducesTo [0] S_

variable [Facts]

def fn_part1 {F : FTy → Type} [FloatOps F] (main_arg4 : FVec F S64 .f32) (main_arg5 : FVec F S800000 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S800000 .f32 := Host.absf main_arg5
  let main_cst_8 : FVec F S_ .f32 := constant S_ .f32 0x7F800000#32
  let main_v25 : FVec F S800000 .f32 := broadcastInDim S800000 ![] bcast_S_S800000 main_cst_8
  let main_v26 : IVec S800000 1 := cmpf .olt main_v24 main_v25
  let main_c_9 : IVec S_ 1 := constantI S_ 1 1#1
  let main_v27 : IVec S_ 1 := (fun x v => Host.reduce IntOp.andi x v reducesTo_S800000_S_d0 h_S_) main_v26 main_c_9
  let main_v28 : IVec S_ 1 := andi main_v23 main_v27
  main_v28

def fn {F : FTy → Type} [FloatOps F] (main_arg0 : FVec F S50000x512 .f32) (main_arg1 : FVec F S512x128 .f32) (main_arg2 : FVec F S128 .f32) (main_arg3 : FVec F S128x64 .f32) (main_arg4 : FVec F S64 .f32) (main_arg5 : FVec F S800000 .f32) (main_arg6 : IVec S800000 32) (main_arg7 : IVec S800000 32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S512x128 .f32 := Host.absf main_arg1
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg3
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg4 main_arg5 main_v13 main_v16
-- ==== Kernel.lean ====
abbrev S50000x512 : Shape := ⟨2, ![50000, 512]⟩
abbrev S512x128 : Shape := ⟨2, ![512, 128]⟩
abbrev S128 : Shape := ⟨1, ![128]⟩
abbrev S128x64 : Shape := ⟨2, ![128, 64]⟩
abbrev S64 : Shape := ⟨1, ![64]⟩
abbrev S800000 : Shape := ⟨1, ![800000]⟩
abbrev S50000x128 : Shape := ⟨2, ![50000, 128]⟩
abbrev S2000x512 : Shape := ⟨2, ![2000, 512]⟩
abbrev S2000x128 : Shape := ⟨2, ![2000, 128]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S5000x128 : Shape := ⟨2, ![5000, 128]⟩
abbrev S50000x64 : Shape := ⟨2, ![50000, 64]⟩
abbrev S2000x64 : Shape := ⟨2, ![2000, 64]⟩
abbrev S800000x64 : Shape := ⟨2, ![800000, 64]⟩
abbrev S1x64 : Shape := ⟨2, ![1, 64]⟩
abbrev S5000x64 : Shape := ⟨2, ![5000, 64]⟩

abbrev nBuf : Space → Nat
  | .hbm => 46
  | .vmem => 20
  | .smem => 0
  | _ => 0

abbrev bufTy : (tb : Table) → Fin (tcTables nBuf tb) → BufTy
  | .hbm, ⟨0, _⟩ => ⟨S50000x512, .f32⟩
  | .hbm, ⟨1, _⟩ => ⟨S512x128, .f32⟩
  | .hbm, ⟨2, _⟩ => ⟨S128, .f32⟩
  | .hbm, ⟨3, _⟩ => ⟨S128x64, .f32⟩
  | .hbm, ⟨4, _⟩ => ⟨S64, .f32⟩
  | .hbm, ⟨5, _⟩ => ⟨S800000, .f32⟩
  | .hbm, ⟨6, _⟩ => ⟨S800000, .i32⟩
  | .hbm, ⟨7, _⟩ => ⟨S800000, .i32⟩
  | .hbm, ⟨8, _⟩ => ⟨S50000x128, .f32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x128, .f32⟩
  | .hbm, ⟨18, _⟩ => ⟨S800000x1, .f32⟩
  | .hbm, ⟨19, _⟩ => ⟨S800000x128, .f32⟩
  | .hbm, ⟨20, _⟩ => ⟨S800000x128, .f32⟩
  | .hbm, ⟨21, _⟩ => ⟨S_, .f32⟩
  | .hbm, ⟨22, _⟩ => ⟨S50000x128, .f32⟩
  | .hbm, ⟨23, _⟩ => ⟨S800000x1, .i32⟩
  | .hbm, ⟨24, _⟩ => ⟨S50000x128, .f32⟩
  | .hbm, ⟨25, _⟩ => ⟨S1x128, .f32⟩
  | .hbm, ⟨26, _⟩ => ⟨S50000x128, .f32⟩
  | .hbm, ⟨27, _⟩ => ⟨S50000x64, .f32⟩
  | .hbm, ⟨28, _⟩ => ⟨S_, .i32⟩
  | .hbm, ⟨29, _⟩ => ⟨S800000, .i32⟩
  | .hbm, ⟨30, _⟩ => ⟨S800000, .i1⟩
  | .hbm, ⟨31, _⟩ => ⟨S_, .i32⟩
  | .hbm, ⟨32, _⟩ => ⟨S800000, .i32⟩
  | .hbm, ⟨33, _⟩ => ⟨S800000, .i32⟩
  | .hbm, ⟨34, _⟩ => ⟨S800000, .i32⟩
  | .hbm, ⟨35, _⟩ => ⟨S800000x1, .i32⟩
  | .hbm, ⟨36, _⟩ => ⟨S800000x64, .f32⟩
  | .hbm, ⟨37, _⟩ => ⟨S800000x1, .f32⟩
  | .hbm, ⟨38, _⟩ => ⟨S800000x64, .f32⟩
  | .hbm, ⟨39, _⟩ => ⟨S800000x64, .f32⟩
  | .hbm, ⟨40, _⟩ => ⟨S_, .f32⟩
  | .hbm, ⟨41, _⟩ => ⟨S50000x64, .f32⟩
  | .hbm, ⟨42, _⟩ => ⟨S800000x1, .i32⟩
  | .hbm, ⟨43, _⟩ => ⟨S50000x64, .f32⟩
  | .hbm, ⟨44, _⟩ => ⟨S1x64, .f32⟩
  | .hbm, ⟨45, _⟩ => ⟨S50000x64, .f32⟩
  | .local _ .vmem, ⟨0, _⟩ => ⟨S2000x512, .f32⟩
  | .local _ .vmem, ⟨1, _⟩ => ⟨S2000x512, .f32⟩
  | .local _ .vmem, ⟨2, _⟩ => ⟨S512x128, .f32⟩
  | .local _ .vmem, ⟨3, _⟩ => ⟨S2000x128, .f32⟩
  | .local _ .vmem, ⟨4, _⟩ => ⟨S2000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S2000x128, .f32⟩
  | .local _ .vmem, ⟨11, _⟩ => ⟨S2000x128, .f32⟩
  | .local _ .vmem, ⟨12, _⟩ => ⟨S128x64, .f32⟩
  | .local _ .vmem, ⟨13, _⟩ => ⟨S2000x64, .f32⟩
  | .local _ .vmem, ⟨14, _⟩ => ⟨S2000x64, .f32⟩
  | .local _ .vmem, ⟨15, _⟩ => ⟨S5000x64, .f32⟩
  | .local _ .vmem, ⟨16, _⟩ => ⟨S5000x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c_1 : Ref sig .tc := ⟨.hbm, 28, rfl⟩
abbrev main_v17 : Ref sig .tc := ⟨.hbm, 29, rfl⟩
abbrev main_v18 : Ref sig .tc := ⟨.hbm, 30, rfl⟩
abbrev main_c_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  inb_S2000x128_S2000x128_0_0 : ∀ a, (![0, 0] : Fin 2 → Nat) a + S2000x128.size a ≤ S2000x128.size a
  h_S2000x128 : 0 < S2000x128.numel
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  shapeCasts_S2000x128_S2000x128 : S2000x128.ShapeCasts S2000x128
  inb_S128x64_S128x64_0_0 : ∀ a, (![0, 0] : Fin 2 → Nat) a + S128x64.size a ≤ S128x64.size a
  h_S128x64 : 0 < S128x64.numel
  inb_S2000x64_S2000x64_0_0 : ∀ a, (![0, 0] : Fin 2 → Nat) a + S2000x64.size a ≤ S2000x64.size a
  h_S2000x64 : 0 < S2000x64.numel
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  dot_S2000x512_S512x128_S2000x128_1_0_0_1_n_n_wf : DotDims.WF S2000x512 S512x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x64_S2000x64_1_0_0_1_n_n_wf : DotDims.WF S2000x128 S128x64 S2000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x64.size a ≤ S50000x64.size a
  hwx2_2 : ∀ i : grid2.Coords, EltTy.bits .f32 = 32 ∨ (Rect.block (s := S50000x64) S2000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S50000x64.size a
  hwx3_2 : ∀ i : grid3.Coords, EltTy.bits .f32 = 32 ∨ (Rect.block (s := S50000x64) S5000x64.size (cc3_transform_2 i) (hinb3_2 i)).WholeWords (EltTy.packing .f32)

variable [Facts₀]

def dot_S2000x512_S512x128_S2000x128_1_0_0_1_n_n : DotDims S2000x512 S512x128 S2000x128 where
  lhsContracting := [1]
  rhsContracting := [0]
  lhsNonContracting := [0]
  rhsNonContracting := [1]
  lhsBatch := []
  rhsBatch := []
  wf := dot_S2000x512_S512x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v13) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v15) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v15) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v16) S2000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v29) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v30) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v31) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x512 : Shape := ⟨2, ![50000, 512]⟩
abbrev S512x128 : Shape := ⟨2, ![512, 128]⟩
abbrev S128 : Shape := ⟨1, ![128]⟩
abbrev S128x64 : Shape := ⟨2, ![128, 64]⟩
abbrev S64 : Shape := ⟨1, ![64]⟩
abbrev S800000 : Shape := ⟨1, ![800000]⟩
abbrev S50000x128 : Shape := ⟨2, ![50000, 128]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S50000x64 : Shape := ⟨2, ![50000, 64]⟩
abbrev S800000x64 : Shape := ⟨2, ![800000, 64]⟩
abbrev S1x64 : Shape := ⟨2, ![1, 64]⟩

abbrev nBuf : Space → Nat
  | .hbm => 51
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S512x128, .f32⟩
  | .hbm, ⟨2, _⟩ => ⟨S128, .f32⟩
  | .hbm, ⟨3, _⟩ => ⟨S128x64, .f32⟩
  | .hbm, ⟨4, _⟩ => ⟨S64, .f32⟩
  | .hbm, ⟨5, _⟩ => ⟨S800000, .f32⟩
  | .hbm, ⟨6, _⟩ => ⟨S800000, .i32⟩
  | .hbm, ⟨7, _⟩ => ⟨S800000, .i32⟩
  | .hbm, ⟨8, _⟩ => ⟨S50000x128, .f32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x128, .f32⟩
  | .hbm, ⟨18, _⟩ => ⟨S800000x1, .f32⟩
  | .hbm, ⟨19, _⟩ => ⟨S800000x128, .f32⟩
  | .hbm, ⟨20, _⟩ => ⟨S800000x128, .f32⟩
  | .hbm, ⟨21, _⟩ => ⟨S_, .f32⟩
  | .hbm, ⟨22, _⟩ => ⟨S50000x128, .f32⟩
  | .hbm, ⟨23, _⟩ => ⟨S800000x1, .i32⟩
  | .hbm, ⟨24, _⟩ => ⟨S50000x128, .f32⟩
  | .hbm, ⟨25, _⟩ => ⟨S1x128, .f32⟩
  | .hbm, ⟨26, _⟩ => ⟨S50000x128, .f32⟩
  | .hbm, ⟨27, _⟩ => ⟨S50000x128, .f32⟩
  | .hbm, ⟨28, _⟩ => ⟨S_, .f32⟩
  | .hbm, ⟨29, _⟩ => ⟨S50000x128, .f32⟩
  | .hbm, ⟨30, _⟩ => ⟨S50000x128, .f32⟩
  | .hbm, ⟨31, _⟩ => ⟨S50000x64, .f32⟩
  | .hbm, ⟨32, _⟩ => ⟨S_, .i32⟩
  | .hbm, ⟨33, _⟩ => ⟨S800000, .i32⟩
  | .hbm, ⟨34, _⟩ => ⟨S800000, .i1⟩
  | .hbm, ⟨35, _⟩ => ⟨S_, .i32⟩
  | .hbm, ⟨36, _⟩ => ⟨S800000, .i32⟩
  | .hbm, ⟨37, _⟩ => ⟨S800000, .i32⟩
  | .hbm, ⟨38, _⟩ => ⟨S800000, .i32⟩
  | .hbm, ⟨39, _⟩ => ⟨S800000x1, .i32⟩
  | .hbm, ⟨40, _⟩ => ⟨S800000x64, .f32⟩
  | .hbm, ⟨41, _⟩ => ⟨S800000x1, .f32⟩
  | .hbm, ⟨42, _⟩ => ⟨S800000x64, .f32⟩
  | .hbm, ⟨43, _⟩ => ⟨S800000x64, .f32⟩
  | .hbm, ⟨44, _⟩ => ⟨S_, .f32⟩
  | .hbm, ⟨45, _⟩ => ⟨S50000x64, .f32⟩
  | .hbm, ⟨46, _⟩ => ⟨S800000x1, .i32⟩
  | .hbm, ⟨47, _⟩ => ⟨S50000x64, .f32⟩
  | .hbm, ⟨48, _⟩ => ⟨S1x64, .f32⟩
  | .hbm, ⟨49, _⟩ => ⟨S50000x64, .f32⟩
  | .hbm, ⟨50, _⟩ => ⟨S50000x64, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_call0_cst : Ref sig .tc := ⟨.hbm, 28, rfl⟩
abbrev main_call0_v0 : Ref sig .tc := ⟨.hbm, 29, rfl⟩
abbrev main_v17 : Ref sig .tc := ⟨.hbm, 30, rfl⟩
abbrev main_v18 : Ref sig .tc := ⟨.hbm, 31, rfl⟩
abbrev main_c_1 : Ref sig .tc := ⟨.hbm, 32, rfl⟩
abbrev main_v19 : Ref sig .tc := ⟨.hbm, 33, rfl⟩
abbrev main_v20 : Ref sig .tc := ⟨.hbm, 34, rfl⟩
abbrev main_c_2 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_3 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  dot_S50000x512_S512x128_S50000x128_1_0_0_1_n_n_wf : DotDims.WF S50000x512 S512x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x64_S50000x64_1_0_0_1_n_n_wf : DotDims.WF S50000x128 S128x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1

variable [Facts₀]

def dot_S50000x512_S512x128_S50000x128_1_0_0_1_n_n : DotDims S50000x512 S512x128 S50000x128 where
  lhsContracting := [1]
  rhsContracting := [0]
  lhsNonContracting := [0]
  rhsNonContracting := [1]
  lhsBatch := []
  rhsBatch := []
  wf := dot_S50000x512_S512x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

class Facts : Prop extends Facts₀ where

variable [Facts]
-- ==== Proof.KernelRun.lean ====
/-
  The idealized kernel program's run, with EVERY array after the run named.

  The program is four kernel regions among two stretches of host operations.  The generated frame runs it
  segment by segment and keeps, at each boundary, the contents of every array as a fold from the launch
  memory (`Gen.W0` … `Gen.W6`); its stated post mentions the argument arrays only.  Here the same run is
  stated with the stronger post the last thread state gives: after the run every array that outlives the
  regions holds what the last boundary's fold `Gen.W6` says — in particular the result array.
-/
import proofs.«148922_j12850542150061_1_alg».proof.Proof.Gen.KernelIdeal.Frame

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, and afterwards every array that
    outlives the regions holds the last boundary's contents. -/
theorem run_buffers : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

/-- The result array after the run. -/
theorem result_of {r : PUnit × MemSt nD τ sig (Elt F)}
    (h : ∀ c : Dev nD, ∀ b ∈ Pipeline.ucRefs τ sig, r.2.mem (((c : Thread nD τ)).1, b) = W6 m ρ c b) (c : Dev nD) :
    r.2.mem ((c.tc : Thread nD τ).loc main_v31) = W6 m ρ c (Proc.devRef .tc main_v31) :=
  h c _ (mem_uc main_v31 (by decide))

/-- The argument arrays after the run are as launched. -/
theorem args_of {r : PUnit × MemSt nD τ sig (Elt F)}
    (h : ∀ c : Dev nD, ∀ b ∈ Pipeline.ucRefs τ sig, r.2.mem (((c : Thread nD τ)).1, b) = W6 m ρ c b) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  ⟨(h c _ (mem_uc main_arg0 (by decide))).trans (W6_main_arg0 m ρ c),
   (h c _ (mem_uc main_arg1 (by decide))).trans (W6_main_arg1 m ρ c),
   (h c _ (mem_uc main_arg2 (by decide))).trans (W6_main_arg2 m ρ c),
   (h c _ (mem_uc main_arg3 (by decide))).trans (W6_main_arg3 m ρ c),
   (h c _ (mem_uc main_arg4 (by decide))).trans (W6_main_arg4 m ρ c),
   (h c _ (mem_uc main_arg5 (by decide))).trans (W6_main_arg5 m ρ c),
   (h c _ (mem_uc main_arg6 (by decide))).trans (W6_main_arg6 m ρ c),
   (h c _ (mem_uc main_arg7 (by decide))).trans (W6_main_arg7 m ρ c)⟩

end Cert.KernelIdeal.Whole

end
-- ==== Proof.Spec.lean ====
/-
  The network both programs compute, as whole-array functions over the extended reals.

  A two-layer graph convolution on 50000 nodes with 800000 weighted edges (row r, column c, weight w):
    dense₁  = x · W₁                                   ([50000,512] · [512,128])
    agg₁[r] = Σ over edges e with row e = r of  w[e] · dense₁[col e]     (a gather, a product, a scatter-add into zeros)
    hidden  = max (agg₁ + b₁, 0)
    dense₂  = hidden · W₂                              ([50000,128] · [128,64])
    agg₂[r] = Σ over edges e with row e = r of  w[e] · dense₂[col e]
    result  = agg₂ + b₂
  Every stage is spelt with the host operations of the reference program, so that the reference's result
  is this composition by unfolding; the aggregation (gather, weights, scatter-add, negative column numbers
  counted from the end) is one function per width, never opened by the proof.
-/
import proofs.«148922_j12850542150061_1_alg».proof.ReferenceIdeal
import Idealize.ShloMosaic.PureOps.Ideal

noncomputable section

namespace Cert.Gcn

open Idealize.ShloMosaic Cert.ReferenceIdeal Cert.ReferenceIdeal.Facts₀

variable [Cert.ReferenceIdeal.Facts]

/-- A float array of shape `s` over the extended reals. -/
abbrev Arr (s : Shape) : Type := FVec Ideal s .f32
/-- A 32-bit integer array of shape `s`. -/
abbrev Ints (s : Shape) : Type := IVec s 32

/-- Column numbers as the gather reads them: a negative one counts from the end (`c + 50000`). -/
def wrapCol (col : Ints S800000) : Ints S800000 :=
  select (cmpi .slt col (broadcastInDim S800000 ![] bcast_S_S800000 (constantI S_ 32 0#32)))
    (addi col (broadcastInDim S800000 ![] bcast_S_S800000 (constantI S_ 32 50000#32))) col

/-- The edge aggregation at width 128: row `r` of the result is the sum over the edges of row `r` of the
    edge's weight times the feature row the edge's column names. -/
def aggregate128 (feat : Arr S50000x128) (w : Arr S800000) (row col : Ints S800000) : Arr S50000x128 :=
  Host.scatterAdd (F := Ideal) scatter_S50000x128_S800000x1_S800000x128_1_0_0_1
    (broadcastInDim S50000x128 ![] bcast_S_S50000x128 (constant (F := Ideal) S_ .f32 0x00000000#32))
    (broadcastInDim S800000x1 ![0] bcast_S800000_S800000x1_0 row)
    (mulf (F := Ideal)
      (Host.gather gather_S50000x128_S800000x1_S800000x128_1_0_n_n_0_1_1128 feat
        (broadcastInDim S800000x1 ![0] bcast_S800000_S800000x1_0 (wrapCol col)))
      (broadcastInDim S800000x128 ![0, 1] bcast_S800000x1_S800000x128_0_1
        (broadcastInDim S800000x1 ![0] bcast_S800000_S800000x1_0 w)))

/-- The edge aggregation at width 64. -/
def aggregate64 (feat : Arr S50000x64) (w : Arr S800000) (row col : Ints S800000) : Arr S50000x64 :=
  Host.scatterAdd (F := Ideal) scatter_S50000x64_S800000x1_S800000x64_1_0_0_1
    (broadcastInDim S50000x64 ![] bcast_S_S50000x64 (constant (F := Ideal) S_ .f32 0x00000000#32))
    (broadcastInDim S800000x1 ![0] bcast_S800000_S800000x1_0 row)
    (mulf (F := Ideal)
      (Host.gather gather_S50000x64_S800000x1_S800000x64_1_0_n_n_0_1_164 feat
        (broadcastInDim S800000x1 ![0] bcast_S800000_S800000x1_0 (wrapCol col)))
      (broadcastInDim S800000x64 ![0, 1] bcast_S800000x1_S800000x64_0_1
        (broadcastInDim S800000x1 ![0] bcast_S800000_S800000x1_0 w)))

/-- The first dense layer: `x · W₁`, entry `(r, j)` the sum over `k < 512` of `x[r,k] · W₁[k,j]`. -/
def dense1 (x : Arr S50000x512) (W1 : Arr S512x128) : Arr S50000x128 :=
  Host.dotGeneral (F := Ideal) dot_S50000x512_S512x128_S50000x128_1_0_0_1_n_n none x W1

/-- The second dense layer: `h · W₂`, entry `(r, j)` the sum over `k < 128` of `h[r,k] · W₂[k,j]`. -/
def dense2 (h : Arr S50000x128) (W2 : Arr S128x64) : Arr S50000x64 :=
  Host.dotGeneral (F := Ideal) dot_S50000x128_S128x64_S50000x64_1_0_0_1_n_n none h W2

/-- The hidden activation: the bias added to every row, then the positive part. -/
def hidden (s : Arr S50000x128) (b1 : Arr S128) : Arr S50000x128 :=
  maximumf (F := Ideal)
    (addf (F := Ideal) s (broadcastInDim S50000x128 ![0, 1] bcast_S1x128_S50000x128_0_1 (broadcastInDim S1x128 ![1] bcast_S128_S1x128_1 b1)))
    (broadcastInDim S50000x128 ![] bcast_S_S50000x128 (constant (F := Ideal) S_ .f32 0x00000000#32))

/-- The output layer's bias added to every row. -/
def biased (s : Arr S50000x64) (b2 : Arr S64) : Arr S50000x64 :=
  addf (F := Ideal) s (broadcastInDim S50000x64 ![0, 1] bcast_S1x64_S50000x64_0_1 (broadcastInDim S1x64 ![1] bcast_S64_S1x64_1 b2))

/-- The whole network. -/
def net (x : Arr S50000x512) (W1 : Arr S512x128) (b1 : Arr S128) (W2 : Arr S128x64) (b2 : Arr S64)
    (w : Arr S800000) (row col : Ints S800000) : Arr S50000x64 :=
  biased (aggregate64 (dense2 (hidden (aggregate128 (dense1 x W1) w row col) b1) W2) w row col) b2

end Cert.Gcn

end
-- ==== Proof.SpecAt.lean ====
/-
  The network's stages read at an entry.

  Over the extended reals a dense layer's entry (r, j) is the plain sum over k of left[r,k] · right[k,j]; the
  hidden activation's entry (r, j) is max (s[r,j] + b₁[j], 0); the output's entry (r, j) is s[r,j] + b₂[j].
  (The aggregation stages are never read at an entry: both programs apply the same one.)
-/
import proofs.«148922_j12850542150061_1_alg».proof.Proof.Spec
import proofs.«148922_j12850542150061_1_alg».proof.Proof.Gen.ReferenceIdeal.Read
import Idealize.ShloMosaic.Lib.Pipeline.Value
import Idealize.ShloMosaic.Lib.ValueIdx
import Idealize.ShloMosaic.PureOps.Ideal.Laws

noncomputable section

namespace Cert.Gcn

open Idealize.ShloMosaic Cert.ReferenceIdeal Cert.ReferenceIdeal.Read

/-- Entry `(r, j)` of `x · W₁`: the sum over `k < 512` of `x[r,k] · W₁[k,j]`. -/
theorem dense1_apply (x : Arr S50000x512) (W1 : Arr S512x128) (i : S50000x128.Idx) :
    dense1 x W1 i = ∑ k : Fin 512, x (lidx_main_v0 i k) * W1 (ridx_main_v0 i k) :=
  val_main_v0_apply x W1 i

/-- Entry `(r, j)` of `h · W₂`: the sum over `k < 128` of `h[r,k] · W₂[k,j]`. -/
theorem dense2_apply (h : Arr S50000x128) (W2 : Arr S128x64) (i : S50000x64.Idx) :
    dense2 h W2 i = ∑ k : Fin 128, h (lidx_main_v18 i k) * W2 (ridx_main_v18 i k) := by
  unfold dense2
  simp only [Host.dotGeneral]
  rw [Ideal.dotGeneral_apply, ← Equiv.sum_comp (ValueIdx.contrEquiv1 dot_S50000x128_S128x64_S50000x64_1_0_0_1_n_n 128 rfl rfl).symm]
  refine Finset.sum_congr rfl fun k _ => ?_
  have hk := ValueIdx.contrEquiv1_symm_val dot_S50000x128_S128x64_S50000x64_1_0_0_1_n_n 128 rfl rfl k
  have el : dot_S50000x128_S128x64_S50000x64_1_0_0_1_n_n.lhsIdx i ((ValueIdx.contrEquiv1 dot_S50000x128_S128x64_S50000x64_1_0_0_1_n_n 128 rfl rfl).symm k) = lidx_main_v18 i k := funext fun a => Fin.ext (by
    match a with
    | ⟨0, _⟩ => exact lhs_main_v18_0 _ _
    | ⟨1, _⟩ => exact (lhs_main_v18_1 _ _).trans hk)
  have er : dot_S50000x128_S128x64_S50000x64_1_0_0_1_n_n.rhsIdx i ((ValueIdx.contrEquiv1 dot_S50000x128_S128x64_S50000x64_1_0_0_1_n_n 128 rfl rfl).symm k) = ridx_main_v18 i k := funext fun a => Fin.ext (by
    match a with
    | ⟨0, _⟩ => exact (rhs_main_v18_0 _ _).trans hk
    | ⟨1, _⟩ => exact rhs_main_v18_1 _ _)
  rw [el, er]

/-- Entry `(r, j)` of the hidden activation: `max (s[r,j] + b₁[j], 0)`. -/
theorem hidden_apply (s : Arr S50000x128) (b1 : Arr S128) (i : S50000x128.Idx) :
    hidden s b1 i = max (s i + b1 (idx_main_v14 (idx_main_v15 i))) (Ideal.ofBits .f32 0x00000000#32) := by
  show max (s i + val_main_v15 (F := Ideal) b1 i) (val_main_call0_v0 (F := Ideal) i) = _
  rw [val_main_v15_apply, val_main_v14_apply, val_main_call0_v0_apply]
  rfl

/-- Entry `(r, j)` of the output: `s[r,j] + b₂[j]`. -/
theorem biased_apply (s : Arr S50000x64) (b2 : Arr S64) (i : S50000x64.Idx) :
    biased s b2 i = s i + b2 (idx_main_v32 (idx_main_v33 i)) := by
  show s i + val_main_v33 (F := Ideal) b2 i = _
  rw [val_main_v33_apply, val_main_v32_apply]

end Cert.Gcn

end
-- ==== Proof.Dense1.lean ====
/-
  REGION 0 of the kernel program is the first dense layer: its result array ends holding x · W₁.

  The region's grid has 25 points; point t reads rows 2000·t … 2000·t + 1999 of the left operand and the
  whole right operand, multiplies them (the operands rounded to bf16 on the way in, which is the identity
  over the extended reals, into a zero accumulator) and writes rows 2000·t … 2000·t + 1999 of the result.
  Entry (r, j) of a block product is the sum over k < 512 of left[r,k] · right[k,j]; row r of block t is row
  2000·t + r of the array, so the 25 blocks together are the whole product, entry by entry the same sum as
  the host's `dot_general`.
-/
import proofs.«148922_j12850542150061_1_alg».proof.Proof.Gen.KernelIdeal.Frame
import proofs.«148922_j12850542150061_1_alg».proof.Proof.SpecAt
import Idealize.ShloMosaic.Lib.Pipeline.Value
import Idealize.ShloMosaic.Lib.ValueIdx
import Idealize.ShloMosaic.PureOps.Ideal.Laws

set_option maxRecDepth 16384

noncomputable section

namespace Cert.KernelIdeal.Dense1

open Idealize.ShloMosaic Idealize.ShloMosaic.TcCoe Idealize.SL.Sem
open Idealize.ShloMosaic.Pipeline (Dat)
open Cert.KernelIdeal Cert.KernelIdeal.Gen

-- the contents of every array when the region is entered
variable (V : (c : Dev nD) → (b : Ref sig .tc) → Buf (Elt Ideal) ((c : Thread nD τ).loc b))

theorem hz : (![0, 0] : Fin 2 → Nat) = fun _ => 0 := funext fun a => by fin_cases a <;> rfl

/-! ## A block product at an entry -/

/-- Which entries of the two operands the product's entry `(i 0, i 1)` reads at `k`: the block dimensions' own
    index functions, axis by axis. -/
theorem lhs_axis0 (i : S2000x128.Idx) (q : dot_S2000x512_S512x128_S2000x128_1_0_0_1_n_n.contr.Idx) :
    (dot_S2000x512_S512x128_S2000x128_1_0_0_1_n_n.lhsIdx i q 0).val = (i 0).val := by
  unfold DotDims.lhsIdx
  rw [dif_neg (show ¬(0 : Fin S2000x512.rank) ∈ dot_S2000x512_S512x128_S2000x128_1_0_0_1_n_n.lhsBatch by decide), dif_pos (show (0 : Fin S2000x512.rank) ∈ dot_S2000x512_S512x128_S2000x128_1_0_0_1_n_n.lhsNonContracting by decide)]
  rfl
theorem lhs_axis1 (i : S2000x128.Idx) (q : dot_S2000x512_S512x128_S2000x128_1_0_0_1_n_n.contr.Idx) :
    (dot_S2000x512_S512x128_S2000x128_1_0_0_1_n_n.lhsIdx i q 1).val = (q ⟨0, by decide⟩).val :=
  dot_S2000x512_S512x128_S2000x128_1_0_0_1_n_n.lhsIdx_val_of_single rfl i q
theorem rhs_axis0 (i : S2000x128.Idx) (q : dot_S2000x512_S512x128_S2000x128_1_0_0_1_n_n.contr.Idx) :
    (dot_S2000x512_S512x128_S2000x128_1_0_0_1_n_n.rhsIdx i q 0).val = (q ⟨0, by decide⟩).val :=
  dot_S2000x512_S512x128_S2000x128_1_0_0_1_n_n.rhsIdx_val_of_single rfl i q
theorem rhs_axis1 (i : S2000x128.Idx) (q : dot_S2000x512_S512x128_S2000x128_1_0_0_1_n_n.contr.Idx) :
    (dot_S2000x512_S512x128_S2000x128_1_0_0_1_n_n.rhsIdx i q 1).val = (i 1).val := by
  unfold DotDims.rhsIdx
  rw [dif_neg (show ¬(1 : Fin S512x128.rank) ∈ dot_S2000x512_S512x128_S2000x128_1_0_0_1_n_n.rhsBatch by decide), dif_pos (show (1 : Fin S512x128.rank) ∈ dot_S2000x512_S512x128_S2000x128_1_0_0_1_n_n.rhsNonContracting by decide)]
  rfl

/-- Entry `(r, k)` of the left block, for the product's entry in row `r`. -/
abbrev lrow (j : S2000x128.Idx) (k : Fin 512) : S2000x512.Idx := fun a => match a with
  | ⟨0, _⟩ => ⟨(j 0).val, (j 0).isLt⟩
  | ⟨1, _⟩ => ⟨k.val, k.isLt⟩
/-- Entry `(k, c)` of the right operand, for the product's entry in column `c`. -/
abbrev rcol (j : S2000x128.Idx) (k : Fin 512) : S512x128.Idx := fun a => match a with
  | ⟨0, _⟩ => ⟨k.val, k.isLt⟩
  | ⟨1, _⟩ => ⟨(j 1).val, (j 1).isLt⟩

/-- What the body stores, at an entry: the sum over `k` of left`[r,k]` · right`[k,c]` — rounding the operands to bf16
    is the identity over the extended reals, and the accumulator is zero. -/
theorem block_product (x0 : Vec Ideal S2000x512 .f32) (x1 : Vec Ideal S512x128 .f32) (j : S2000x128.Idx) :
    k0_pay1 x0 x1 j = ∑ k : Fin 512, x0 (lrow j k) * x1 (rcol j k) := by
  unfold k0_pay1
  simp only [matmul]
  rw [Ideal.matmul_constant_zero_apply]
  show ∑ k, x0 (dot_S2000x512_S512x128_S2000x128_1_0_0_1_n_n.lhsIdx j k) * x1 (dot_S2000x512_S512x128_S2000x128_1_0_0_1_n_n.rhsIdx j k) = _
  rw [← Equiv.sum_comp (ValueIdx.contrEquiv1 dot_S2000x512_S512x128_S2000x128_1_0_0_1_n_n 512 rfl rfl).symm]
  refine Finset.sum_congr rfl fun k _ => ?_
  have hk := ValueIdx.contrEquiv1_symm_val dot_S2000x512_S512x128_S2000x128_1_0_0_1_n_n 512 rfl rfl k
  have el : dot_S2000x512_S512x128_S2000x128_1_0_0_1_n_n.lhsIdx j ((ValueIdx.contrEquiv1 dot_S2000x512_S512x128_S2000x128_1_0_0_1_n_n 512 rfl rfl).symm k) = lrow j k := funext fun a => Fin.ext (by
    match a with
    | ⟨0, _⟩ => exact lhs_axis0 _ _
    | ⟨1, _⟩ => exact (lhs_axis1 _ _).trans hk)
  have er : dot_S2000x512_S512x128_S2000x128_1_0_0_1_n_n.rhsIdx j ((ValueIdx.contrEquiv1 dot_S2000x512_S512x128_S2000x128_1_0_0_1_n_n 512 rfl rfl).symm k) = rcol j k := funext fun a => Fin.ext (by
    match a with
    | ⟨0, _⟩ => exact (rhs_axis0 _ _).trans hk
    | ⟨1, _⟩ => exact rhs_axis1 _ _)
  rw [el, er]

/-! ## The blocks as pieces of the arrays -/

/-- The index maps over the grid: the left operand and the result move down one block of 2000 rows per point,
    the right operand stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row `r` of the left block at point `t` is row `2000·t + r` of the left array. -/
theorem left_block (c : Dev nD) (t : Fin cfg0.N) (y : S2000x512.Idx) (i : S50000x512.Idx)
    (h0 : (i 0).val = t.val * 2000 + (y 0).val) (h1 : (i 1).val = (y 1).val) :
    (iblk0 V c 0 t : Vec Ideal S2000x512 .f32) y = (V c main_arg0 : S50000x512.Idx → Elt Ideal .f32) i := by
  obtain ⟨e0, e1, -⟩ := idx_facts t
  unfold iblk0
  rw [View.read_apply]
  show V c main_arg0 _ = V c main_arg0 _
  refine congrArg _ (funext fun a => Fin.ext ?_)
  match a with
  | ⟨0, _⟩ => show win0_0.index t (0 : Fin 2) * 2000 + 1 * (y 0).val = (i 0).val; rw [e0, h0]; omega
  | ⟨1, _⟩ => show win0_0.index t (1 : Fin 2) * 512 + 1 * (y 1).val = (i 1).val; rw [e1, h1]; omega

/-- The right block at every point is the right array. -/
theorem right_block (c : Dev nD) (t : Fin cfg0.N) (y : S512x128.Idx) (i : S512x128.Idx)
    (h0 : (i 0).val = (y 0).val) (h1 : (i 1).val = (y 1).val) :
    (iblk0 V c 1 t : Vec Ideal S512x128 .f32) y = (V c main_arg1 : S512x128.Idx → Elt Ideal .f32) i := by
  obtain ⟨-, -, e0, e1, -⟩ := idx_facts t
  unfold iblk0
  rw [View.read_apply]
  show V c main_arg1 _ = V c main_arg1 _
  refine congrArg _ (funext fun a => Fin.ext ?_)
  match a with
  | ⟨0, _⟩ => show win0_1.index t (0 : Fin 2) * 512 + 1 * (y 0).val = (i 0).val; rw [e0, h0]; omega
  | ⟨1, _⟩ => show win0_1.index t (1 : Fin 2) * 128 + 1 * (y 1).val = (i 1).val; rw [e1, h1]; omega

/-- What point `t` writes back is block `t` of the whole product of the arrays as the region finds them. -/
theorem flushed_eq (c : Dev nD) (t : Fin cfg0.N) :
    (dat0 V c).flushed 2 t = ((cfg0.win 2).blk t).view.read (Elt Ideal) (Cert.Gcn.dense1 (V c main_arg0) (V c main_arg1)) := by
  show (cfg0.win 2).cut (grid0.coords t) ((dat0 V c).after 2 t) = _
  rw [after0_2]
  unfold out0_2
  rw [View.canon_unit_zero hz]
  simp only [View.ld_unit_zero (S := S2000x512) hz, View.ld_unit_zero (S := S512x128) hz]
  obtain ⟨-, -, -, -, e0, e1⟩ := idx_facts t
  funext j
  show k0_pay1 (iblk0 V c 0 t) (iblk0 V c 1 t) j = Cert.Gcn.dense1 (V c main_arg0) (V c main_arg1) (((cfg0.win 2).blk t).view.emb j)
  rw [block_product]
  rw [Cert.Gcn.dense1_apply]
  refine Finset.sum_congr rfl fun k _ => ?_
  have hj0 : (j 0).val < 2000 := (j 0).isLt
  refine congrArg₂ (· * ·) (left_block V c t _ _ ?_ ?_) (right_block V c t _ _ ?_ ?_)
  · show win0_2.index t (0 : Fin 2) * 2000 + 1 * (j 0).val = t.val * 2000 + (j 0).val; rw [e0]; omega
  · rfl
  · rfl
  · show win0_2.index t (1 : Fin 2) * 128 + 1 * (j 1).val = (j 1).val; rw [e1]; omega

/-! ## The blocks cover the result -/

/-- An entry is in point `t`'s block iff its row is one of the block's 2000 rows. -/
theorem mem_blk (t : Fin cfg0.N) (i : S50000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v0).slice (win0_2.rect t)).set ↔ _
  rw [View.set_slice_whole, Rect.mem_set_unit]
  exact Iff.rfl

/-- Row `r` of the result is written by point `r / 2000`. -/
theorem cover (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 25 := N_0
  let t : Fin cfg0.N := ⟨(i 0).val / 2000, by rw [hN]; omega⟩
  have ht : t.val = (i 0).val / 2000 := rfl
  obtain ⟨-, -, -, -, e0, e1⟩ := idx_facts t
  refine ⟨t, flush0_2 t, ?_⟩
  rw [mem_blk]
  intro a
  match a with
  | ⟨0, _⟩ => show win0_2.index t (0 : Fin 2) * 2000 ≤ (i 0).val ∧ (i 0).val < win0_2.index t (0 : Fin 2) * 2000 + 2000; rw [e0, ht]; omega
  | ⟨1, _⟩ => show win0_2.index t (1 : Fin 2) * 128 ≤ (i 1).val ∧ (i 1).val < win0_2.index t (1 : Fin 2) * 128 + 128; rw [e1]; omega

/-- THE REGION'S RESULT: after its 25 points the result array is the whole product of the two arrays the
    region found. -/
theorem final (c : Dev nD) :
    (dat0 V c).arrAt 2 cfg0.N = Cert.Gcn.dense1 (V c main_arg0) (V c main_arg1) :=
  (dat0 V c).arrAt_eq_of_cover 2 (Cert.Gcn.dense1 (V c main_arg0) (V c main_arg1)) (fun t _ => flushed_eq V c t) cover

end Cert.KernelIdeal.Dense1

end
-- ==== Proof.Dense2.lean ====
/-
  REGION 2 of the kernel program is the second dense layer: its result array ends holding h · W₂.

  The region's grid has 25 points; point t reads rows 2000·t … 2000·t + 1999 of the left operand and the
  whole right operand, multiplies them (the operands rounded to bf16 on the way in, which is the identity
  over the extended reals, into a zero accumulator) and writes rows 2000·t … 2000·t + 1999 of the result.
  Entry (r, j) of a block product is the sum over k < 128 of left[r,k] · right[k,j]; row r of block t is row
  2000·t + r of the array, so the 25 blocks together are the whole product, entry by entry the same sum as
  the host's `dot_general`.
-/
import proofs.«148922_j12850542150061_1_alg».proof.Proof.Gen.KernelIdeal.Frame
import proofs.«148922_j12850542150061_1_alg».proof.Proof.SpecAt
import Idealize.ShloMosaic.Lib.Pipeline.Value
import Idealize.ShloMosaic.Lib.ValueIdx
import Idealize.ShloMosaic.PureOps.Ideal.Laws

set_option maxRecDepth 16384

noncomputable section

namespace Cert.KernelIdeal.Dense2

open Idealize.ShloMosaic Idealize.ShloMosaic.TcCoe Idealize.SL.Sem
open Idealize.ShloMosaic.Pipeline (Dat)
open Cert.KernelIdeal Cert.KernelIdeal.Gen

-- the contents of every array when the region is entered
variable (V : (c : Dev nD) → (b : Ref sig .tc) → Buf (Elt Ideal) ((c : Thread nD τ).loc b))

theorem hz : (![0, 0] : Fin 2 → Nat) = fun _ => 0 := funext fun a => by fin_cases a <;> rfl

/-! ## A block product at an entry -/

/-- Which entries of the two operands the product's entry `(i 0, i 1)` reads at `k`: the block dimensions' own
    index functions, axis by axis. -/
theorem lhs_axis0 (i : S2000x64.Idx) (q : dot_S2000x128_S128x64_S2000x64_1_0_0_1_n_n.contr.Idx) :
    (dot_S2000x128_S128x64_S2000x64_1_0_0_1_n_n.lhsIdx i q 0).val = (i 0).val := by
  unfold DotDims.lhsIdx
  rw [dif_neg (show ¬(0 : Fin S2000x128.rank) ∈ dot_S2000x128_S128x64_S2000x64_1_0_0_1_n_n.lhsBatch by decide), dif_pos (show (0 : Fin S2000x128.rank) ∈ dot_S2000x128_S128x64_S2000x64_1_0_0_1_n_n.lhsNonContracting by decide)]
  rfl
theorem lhs_axis1 (i : S2000x64.Idx) (q : dot_S2000x128_S128x64_S2000x64_1_0_0_1_n_n.contr.Idx) :
    (dot_S2000x128_S128x64_S2000x64_1_0_0_1_n_n.lhsIdx i q 1).val = (q ⟨0, by decide⟩).val :=
  dot_S2000x128_S128x64_S2000x64_1_0_0_1_n_n.lhsIdx_val_of_single rfl i q
theorem rhs_axis0 (i : S2000x64.Idx) (q : dot_S2000x128_S128x64_S2000x64_1_0_0_1_n_n.contr.Idx) :
    (dot_S2000x128_S128x64_S2000x64_1_0_0_1_n_n.rhsIdx i q 0).val = (q ⟨0, by decide⟩).val :=
  dot_S2000x128_S128x64_S2000x64_1_0_0_1_n_n.rhsIdx_val_of_single rfl i q
theorem rhs_axis1 (i : S2000x64.Idx) (q : dot_S2000x128_S128x64_S2000x64_1_0_0_1_n_n.contr.Idx) :
    (dot_S2000x128_S128x64_S2000x64_1_0_0_1_n_n.rhsIdx i q 1).val = (i 1).val := by
  unfold DotDims.rhsIdx
  rw [dif_neg (show ¬(1 : Fin S128x64.rank) ∈ dot_S2000x128_S128x64_S2000x64_1_0_0_1_n_n.rhsBatch by decide), dif_pos (show (1 : Fin S128x64.rank) ∈ dot_S2000x128_S128x64_S2000x64_1_0_0_1_n_n.rhsNonContracting by decide)]
  rfl

/-- Entry `(r, k)` of the left block, for the product's entry in row `r`. -/
abbrev lrow (j : S2000x64.Idx) (k : Fin 128) : S2000x128.Idx := fun a => match a with
  | ⟨0, _⟩ => ⟨(j 0).val, (j 0).isLt⟩
  | ⟨1, _⟩ => ⟨k.val, k.isLt⟩
/-- Entry `(k, c)` of the right operand, for the product's entry in column `c`. -/
abbrev rcol (j : S2000x64.Idx) (k : Fin 128) : S128x64.Idx := fun a => match a with
  | ⟨0, _⟩ => ⟨k.val, k.isLt⟩
  | ⟨1, _⟩ => ⟨(j 1).val, (j 1).isLt⟩

/-- What the body stores, at an entry: the sum over `k` of left`[r,k]` · right`[k,c]` — rounding the operands to bf16
    is the identity over the extended reals, and the accumulator is zero. -/
theorem block_product (x0 : Vec Ideal S2000x128 .f32) (x1 : Vec Ideal S128x64 .f32) (j : S2000x64.Idx) :
    k2_pay1 x0 x1 j = ∑ k : Fin 128, x0 (lrow j k) * x1 (rcol j k) := by
  unfold k2_pay1
  simp only [matmul, shapeCast_self]
  rw [Ideal.matmul_constant_zero_apply]
  show ∑ k, x0 (dot_S2000x128_S128x64_S2000x64_1_0_0_1_n_n.lhsIdx j k) * x1 (dot_S2000x128_S128x64_S2000x64_1_0_0_1_n_n.rhsIdx j k) = _
  rw [← Equiv.sum_comp (ValueIdx.contrEquiv1 dot_S2000x128_S128x64_S2000x64_1_0_0_1_n_n 128 rfl rfl).symm]
  refine Finset.sum_congr rfl fun k _ => ?_
  have hk := ValueIdx.contrEquiv1_symm_val dot_S2000x128_S128x64_S2000x64_1_0_0_1_n_n 128 rfl rfl k
  have el : dot_S2000x128_S128x64_S2000x64_1_0_0_1_n_n.lhsIdx j ((ValueIdx.contrEquiv1 dot_S2000x128_S128x64_S2000x64_1_0_0_1_n_n 128 rfl rfl).symm k) = lrow j k := funext fun a => Fin.ext (by
    match a with
    | ⟨0, _⟩ => exact lhs_axis0 _ _
    | ⟨1, _⟩ => exact (lhs_axis1 _ _).trans hk)
  have er : dot_S2000x128_S128x64_S2000x64_1_0_0_1_n_n.rhsIdx j ((ValueIdx.contrEquiv1 dot_S2000x128_S128x64_S2000x64_1_0_0_1_n_n 128 rfl rfl).symm k) = rcol j k := funext fun a => Fin.ext (by
    match a with
    | ⟨0, _⟩ => exact (rhs_axis0 _ _).trans hk
    | ⟨1, _⟩ => exact rhs_axis1 _ _)
  rw [el, er]

/-! ## The blocks as pieces of the arrays -/

/-- The index maps over the grid: the left operand and the result move down one block of 2000 rows per point,
    the right operand stays. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Row `r` of the left block at point `t` is row `2000·t + r` of the left array. -/
theorem left_block (c : Dev nD) (t : Fin cfg2.N) (y : S2000x128.Idx) (i : S50000x128.Idx)
    (h0 : (i 0).val = t.val * 2000 + (y 0).val) (h1 : (i 1).val = (y 1).val) :
    (iblk2 V c 0 t : Vec Ideal S2000x128 .f32) y = (V c main_v15 : S50000x128.Idx → Elt Ideal .f32) i := by
  obtain ⟨e0, e1, -⟩ := idx_facts t
  unfold iblk2
  rw [View.read_apply]
  show V c main_v15 _ = V c main_v15 _
  refine congrArg _ (funext fun a => Fin.ext ?_)
  match a with
  | ⟨0, _⟩ => show win2_0.index t (0 : Fin 2) * 2000 + 1 * (y 0).val = (i 0).val; rw [e0, h0]; omega
  | ⟨1, _⟩ => show win2_0.index t (1 : Fin 2) * 128 + 1 * (y 1).val = (i 1).val; rw [e1, h1]; omega

/-- The right block at every point is the right array. -/
theorem right_block (c : Dev nD) (t : Fin cfg2.N) (y : S128x64.Idx) (i : S128x64.Idx)
    (h0 : (i 0).val = (y 0).val) (h1 : (i 1).val = (y 1).val) :
    (iblk2 V c 1 t : Vec Ideal S128x64 .f32) y = (V c main_arg3 : S128x64.Idx → Elt Ideal .f32) i := by
  obtain ⟨-, -, e0, e1, -⟩ := idx_facts t
  unfold iblk2
  rw [View.read_apply]
  show V c main_arg3 _ = V c main_arg3 _
  refine congrArg _ (funext fun a => Fin.ext ?_)
  match a with
  | ⟨0, _⟩ => show win2_1.index t (0 : Fin 2) * 128 + 1 * (y 0).val = (i 0).val; rw [e0, h0]; omega
  | ⟨1, _⟩ => show win2_1.index t (1 : Fin 2) * 64 + 1 * (y 1).val = (i 1).val; rw [e1, h1]; omega

/-- What point `t` writes back is block `t` of the whole product of the arrays as the region finds them. -/
theorem flushed_eq (c : Dev nD) (t : Fin cfg2.N) :
    (dat2 V c).flushed 2 t = ((cfg2.win 2).blk t).view.read (Elt Ideal) (Cert.Gcn.dense2 (V c main_v15) (V c main_arg3)) := by
  show (cfg2.win 2).cut (grid2.coords t) ((dat2 V c).after 2 t) = _
  rw [after2_2]
  unfold out2_2
  rw [View.canon_unit_zero hz]
  simp only [View.ld_unit_zero (S := S2000x128) hz, View.ld_unit_zero (S := S128x64) hz]
  obtain ⟨-, -, -, -, e0, e1⟩ := idx_facts t
  funext j
  show k2_pay1 (iblk2 V c 0 t) (iblk2 V c 1 t) j = Cert.Gcn.dense2 (V c main_v15) (V c main_arg3) (((cfg2.win 2).blk t).view.emb j)
  rw [block_product]
  rw [Cert.Gcn.dense2_apply]
  refine Finset.sum_congr rfl fun k _ => ?_
  have hj0 : (j 0).val < 2000 := (j 0).isLt
  refine congrArg₂ (· * ·) (left_block V c t _ _ ?_ ?_) (right_block V c t _ _ ?_ ?_)
  · show win2_2.index t (0 : Fin 2) * 2000 + 1 * (j 0).val = t.val * 2000 + (j 0).val; rw [e0]; omega
  · rfl
  · rfl
  · show win2_2.index t (1 : Fin 2) * 64 + 1 * (j 1).val = (j 1).val; rw [e1]; omega

/-! ## The blocks cover the result -/

/-- An entry is in point `t`'s block iff its row is one of the block's 2000 rows. -/
theorem mem_blk (t : Fin cfg2.N) (i : S50000x64.Idx) :
    i ∈ ((cfg2.win 2).blk t).view.set ↔ ∀ a : Fin 2, win2_2.index t a * S2000x64.size a ≤ (i a).val ∧ (i a).val < win2_2.index t a * S2000x64.size a + S2000x64.size a := by
  show i ∈ ((View.whole main_v16).slice (win2_2.rect t)).set ↔ _
  rw [View.set_slice_whole, Rect.mem_set_unit]
  exact Iff.rfl

/-- Row `r` of the result is written by point `r / 2000`. -/
theorem cover (i : S50000x64.Idx) :
    ∃ t : Fin cfg2.N, (cfg2.win 2).flush t = true ∧ i ∈ ((cfg2.win 2).blk t).view.set := by
  have hi0 : (i 0).val < 50000 := (i 0).isLt
  have hi1 : (i 1).val < 64 := (i 1).isLt
  have hN : cfg2.N = 25 := N_2
  let t : Fin cfg2.N := ⟨(i 0).val / 2000, by rw [hN]; omega⟩
  have ht : t.val = (i 0).val / 2000 := rfl
  obtain ⟨-, -, -, -, e0, e1⟩ := idx_facts t
  refine ⟨t, flush2_2 t, ?_⟩
  rw [mem_blk]
  intro a
  match a with
  | ⟨0, _⟩ => show win2_2.index t (0 : Fin 2) * 2000 ≤ (i 0).val ∧ (i 0).val < win2_2.index t (0 : Fin 2) * 2000 + 2000; rw [e0, ht]; omega
  | ⟨1, _⟩ => show win2_2.index t (1 : Fin 2) * 64 ≤ (i 1).val ∧ (i 1).val < win2_2.index t (1 : Fin 2) * 64 + 64; rw [e1]; omega

/-- THE REGION'S RESULT: after its 25 points the result array is the whole product of the two arrays the
    region found. -/
theorem final (c : Dev nD) :
    (dat2 V c).arrAt 2 cfg2.N = Cert.Gcn.dense2 (V c main_v15) (V c main_arg3) :=
  (dat2 V c).arrAt_eq_of_cover 2 (Cert.Gcn.dense2 (V c main_v15) (V c main_arg3)) (fun t _ => flushed_eq V c t) cover

end Cert.KernelIdeal.Dense2

end
-- ==== Proof.Hidden.lean ====
/-
  REGION 1 of the kernel program is the hidden activation: its result array ends holding max (agg₁ + b₁, 0).

  The region's grid has 10 points; point t reads rows 5000·t … 5000·t + 4999 of the aggregated array and the
  one row [1, 128] the bias was re-laid to, adds the bias row to every row and takes the positive part, and writes
  rows 5000·t … 5000·t + 4999 of the result.  Entry (r, j) of a block is max (s[r,j] + b[j], 0); row r of
  block t is row 5000·t + r of the array, so the 10 blocks together are the reference's broadcast-and-add followed by its maximum with zero.
-/
import proofs.«148922_j12850542150061_1_alg».proof.Proof.Gen.KernelIdeal.Frame
import proofs.«148922_j12850542150061_1_alg».proof.Proof.SpecAt
import Idealize.ShloMosaic.Lib.Pipeline.Value
import Idealize.ShloMosaic.Lib.ValueIdx
import Idealize.ShloMosaic.Lib.ValueLayout

set_option maxRecDepth 16384

noncomputable section

namespace Cert.KernelIdeal.Hidden

open Idealize.ShloMosaic Idealize.ShloMosaic.TcCoe Idealize.SL.Sem
open Idealize.ShloMosaic.ValueIdx (ix1 ix2 eq_ix2)
open Idealize.ShloMosaic.Pipeline (Dat)
open Cert.KernelIdeal Cert.KernelIdeal.Gen

-- the contents of every array when the region is entered
variable (V : (c : Dev nD) → (b : Ref sig .tc) → Buf (Elt Ideal) ((c : Thread nD τ).loc b))

theorem hz : (![0, 0] : Fin 2 → Nat) = fun _ => 0 := funext fun a => by fin_cases a <;> rfl

/-! ## A block at an entry -/

/-- What the body stores, at entry `(p, q)` of its block: the aggregated entry plus the bias row's entry `q`, or zero if that is negative
    (the casts between equal shapes are the identity; the row [1, 128] broadcast down the block reads its one row). -/
theorem block_entry (bb : Vec Ideal S1x128 .f32) (xb : Vec Ideal S5000x128 .f32) (p : Fin 5000) (q : Fin 128) :
    k1_pay1 bb xb (ix2 p q) = max (xb (ix2 p q) + bb (ix2 (0 : Fin 1) q)) (Ideal.ofBits .f32 0x00000000#32) := by
  unfold k1_pay1
  simp only [shapeCast_self]
  rw [ValueIdx.maximumf_apply, ValueIdx.addf_apply, ValueIdx.broadcastTo_1b_ab_apply]
  rfl

/-! ## The blocks as pieces of the arrays -/

/-- The index maps over the grid: the aggregated array and the result move down one block of 5000 rows per point,
    the bias row stays. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Row `r` of the aggregated block at point `t` is row `5000·t + r` of the aggregated array. -/
theorem rows_block (c : Dev nD) (t : Fin cfg1.N) (y : S5000x128.Idx) (i : S50000x128.Idx)
    (h0 : (i 0).val = t.val * 5000 + (y 0).val) (h1 : (i 1).val = (y 1).val) :
    (iblk1 V c 0 t : Vec Ideal S5000x128 .f32) y = (V c main_v13 : S50000x128.Idx → Elt Ideal .f32) i := by
  obtain ⟨e0, e1, -⟩ := idx_facts t
  unfold iblk1
  rw [View.read_apply]
  show V c main_v13 _ = V c main_v13 _
  refine congrArg _ (funext fun a => Fin.ext ?_)
  match a with
  | ⟨0, _⟩ => show win1_0.index t (0 : Fin 2) * 5000 + 1 * (y 0).val = (i 0).val; rw [e0, h0]; omega
  | ⟨1, _⟩ => show win1_0.index t (1 : Fin 2) * 128 + 1 * (y 1).val = (i 1).val; rw [e1, h1]; omega

/-- The bias block at every point is the bias row. -/
theorem bias_block (c : Dev nD) (t : Fin cfg1.N) (y : S1x128.Idx) (i : S1x128.Idx)
    (h0 : (i 0).val = (y 0).val) (h1 : (i 1).val = (y 1).val) :
    (iblk1 V c 1 t : Vec Ideal S1x128 .f32) y = (V c main_v14 : S1x128.Idx → Elt Ideal .f32) i := by
  obtain ⟨-, -, e0, e1, -⟩ := idx_facts t
  unfold iblk1
  rw [View.read_apply]
  show V c main_v14 _ = V c main_v14 _
  refine congrArg _ (funext fun a => Fin.ext ?_)
  match a with
  | ⟨0, _⟩ => show win1_1.index t (0 : Fin 2) * 1 + 1 * (y 0).val = (i 0).val; rw [e0, h0]; omega
  | ⟨1, _⟩ => show win1_1.index t (1 : Fin 2) * 128 + 1 * (y 1).val = (i 1).val; rw [e1, h1]; omega

/-- What point `t` writes back is block `t` of the reference's stage applied to the aggregated array as the region
    finds it and to the bias `b`, when the bias row the region finds is `b` re-laid as one row. -/
theorem flushed_eq (c : Dev nD) (b : Cert.Gcn.Arr Cert.ReferenceIdeal.S128)
    (hb : ∀ q : Fin 128, (V c main_v14 : S1x128.Idx → Elt Ideal .f32) (ix2 (0 : Fin 1) q) = b (ix1 q)) (t : Fin cfg1.N) :
    (dat1 V c).flushed 2 t = ((cfg1.win 2).blk t).view.read (Elt Ideal) (Cert.Gcn.hidden (V c main_v13) b) := by
  show (cfg1.win 2).cut (grid1.coords t) ((dat1 V c).after 2 t) = _
  rw [after1_2]
  unfold out1_2
  rw [View.canon_unit_zero hz]
  simp only [View.ld_unit_zero (S := S1x128) hz, View.ld_unit_zero (S := S5000x128) hz]
  obtain ⟨-, -, -, -, e0, e1⟩ := idx_facts t
  funext j
  obtain ⟨p, q, rfl⟩ : ∃ (p : Fin 5000) (q : Fin 128), j = ix2 p q := ⟨j 0, j 1, eq_ix2 j⟩
  show k1_pay1 (iblk1 V c 1 t) (iblk1 V c 0 t) (ix2 p q) = Cert.Gcn.hidden (V c main_v13) b (((cfg1.win 2).blk t).view.emb (ix2 p q))
  rw [block_entry, Cert.Gcn.hidden_apply]
  have hp : p.val < 5000 := p.isLt
  refine congrArg₂ max (congrArg₂ (· + ·) (rows_block V c t _ _ ?_ ?_) ?_) rfl
  · show win1_2.index t (0 : Fin 2) * 5000 + 1 * p.val = t.val * 5000 + p.val; rw [e0]; omega
  · show win1_2.index t (1 : Fin 2) * 128 + 1 * q.val = q.val; rw [e1]; omega
  · rw [bias_block V c t _ (ix2 (0 : Fin 1) q) rfl rfl, hb q]
    refine congrArg b (funext fun a => Fin.ext ?_)
    match a with
    | ⟨0, _⟩ => show q.val = win1_2.index t (1 : Fin 2) * 128 + 1 * q.val; rw [e1]; omega

/-! ## The blocks cover the result -/

/-- An entry is in point `t`'s block iff its row is one of the block's 5000 rows. -/
theorem mem_blk (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v15).slice (win1_2.rect t)).set ↔ _
  rw [View.set_slice_whole, Rect.mem_set_unit]
  exact Iff.rfl

/-- Row `r` of the result is written by point `r / 5000`. -/
theorem cover (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  have hN : cfg1.N = 10 := N_1
  let t : Fin cfg1.N := ⟨(i 0).val / 5000, by rw [hN]; omega⟩
  have ht : t.val = (i 0).val / 5000 := rfl
  obtain ⟨-, -, -, -, e0, e1⟩ := idx_facts t
  refine ⟨t, flush1_2 t, ?_⟩
  rw [mem_blk]
  intro a
  match a with
  | ⟨0, _⟩ => show win1_2.index t (0 : Fin 2) * 5000 ≤ (i 0).val ∧ (i 0).val < win1_2.index t (0 : Fin 2) * 5000 + 5000; rw [e0, ht]; omega
  | ⟨1, _⟩ => show win1_2.index t (1 : Fin 2) * 128 ≤ (i 1).val ∧ (i 1).val < win1_2.index t (1 : Fin 2) * 128 + 128; rw [e1]; omega

/-- THE REGION'S RESULT: after its 10 points the result array is the reference's stage of the aggregated array
    the region found and of the bias. -/
theorem final (c : Dev nD) (b : Cert.Gcn.Arr Cert.ReferenceIdeal.S128)
    (hb : ∀ q : Fin 128, (V c main_v14 : S1x128.Idx → Elt Ideal .f32) (ix2 (0 : Fin 1) q) = b (ix1 q)) :
    (dat1 V c).arrAt 2 cfg1.N = Cert.Gcn.hidden (V c main_v13) b :=
  (dat1 V c).arrAt_eq_of_cover 2 (Cert.Gcn.hidden (V c main_v13) b) (fun t _ => flushed_eq V c b hb t) cover

end Cert.KernelIdeal.Hidden

end
-- ==== Proof.Output.lean ====
/-
  REGION 3 of the kernel program is the output layer's bias: its result array ends holding agg₂ + b₂.

  The region's grid has 10 points; point t reads rows 5000·t … 5000·t + 4999 of the aggregated array and the
  one row [1, 64] the bias was re-laid to, adds the bias row to every row, and writes
  rows 5000·t … 5000·t + 4999 of the result.  Entry (r, j) of a block is s[r,j] + b[j]; row r of
  block t is row 5000·t + r of the array, so the 10 blocks together are the reference's broadcast-and-add.
-/
import proofs.«148922_j12850542150061_1_alg».proof.Proof.Gen.KernelIdeal.Frame
import proofs.«148922_j12850542150061_1_alg».proof.Proof.SpecAt
import Idealize.ShloMosaic.Lib.Pipeline.Value
import Idealize.ShloMosaic.Lib.ValueIdx
import Idealize.ShloMosaic.Lib.ValueLayout

set_option maxRecDepth 16384

noncomputable section

namespace Cert.KernelIdeal.Output

open Idealize.ShloMosaic Idealize.ShloMosaic.TcCoe Idealize.SL.Sem
open Idealize.ShloMosaic.ValueIdx (ix1 ix2 eq_ix2)
open Idealize.ShloMosaic.Pipeline (Dat)
open Cert.KernelIdeal Cert.KernelIdeal.Gen

-- the contents of every array when the region is entered
variable (V : (c : Dev nD) → (b : Ref sig .tc) → Buf (Elt Ideal) ((c : Thread nD τ).loc b))

theorem hz : (![0, 0] : Fin 2 → Nat) = fun _ => 0 := funext fun a => by fin_cases a <;> rfl

/-! ## A block at an entry -/

/-- What the body stores, at entry `(p, q)` of its block: the aggregated entry plus the bias row's entry `q`
    (the casts between equal shapes are the identity; the row [1, 64] broadcast down the block reads its one row). -/
theorem block_entry (bb : Vec Ideal S1x64 .f32) (xb : Vec Ideal S5000x64 .f32) (p : Fin 5000) (q : Fin 64) :
    k3_pay1 bb xb (ix2 p q) = xb (ix2 p q) + bb (ix2 (0 : Fin 1) q) := by
  unfold k3_pay1
  simp only [shapeCast_self]
  rw [ValueIdx.addf_apply, ValueIdx.broadcastTo_1b_ab_apply]

/-! ## The blocks as pieces of the arrays -/

/-- The index maps over the grid: the aggregated array and the result move down one block of 5000 rows per point,
    the bias row stays. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Row `r` of the aggregated block at point `t` is row `5000·t + r` of the aggregated array. -/
theorem rows_block (c : Dev nD) (t : Fin cfg3.N) (y : S5000x64.Idx) (i : S50000x64.Idx)
    (h0 : (i 0).val = t.val * 5000 + (y 0).val) (h1 : (i 1).val = (y 1).val) :
    (iblk3 V c 0 t : Vec Ideal S5000x64 .f32) y = (V c main_v29 : S50000x64.Idx → Elt Ideal .f32) i := by
  obtain ⟨e0, e1, -⟩ := idx_facts t
  unfold iblk3
  rw [View.read_apply]
  show V c main_v29 _ = V c main_v29 _
  refine congrArg _ (funext fun a => Fin.ext ?_)
  match a with
  | ⟨0, _⟩ => show win3_0.index t (0 : Fin 2) * 5000 + 1 * (y 0).val = (i 0).val; rw [e0, h0]; omega
  | ⟨1, _⟩ => show win3_0.index t (1 : Fin 2) * 64 + 1 * (y 1).val = (i 1).val; rw [e1, h1]; omega

/-- The bias block at every point is the bias row. -/
theorem bias_block (c : Dev nD) (t : Fin cfg3.N) (y : S1x64.Idx) (i : S1x64.Idx)
    (h0 : (i 0).val = (y 0).val) (h1 : (i 1).val = (y 1).val) :
    (iblk3 V c 1 t : Vec Ideal S1x64 .f32) y = (V c main_v30 : S1x64.Idx → Elt Ideal .f32) i := by
  obtain ⟨-, -, e0, e1, -⟩ := idx_facts t
  unfold iblk3
  rw [View.read_apply]
  show V c main_v30 _ = V c main_v30 _
  refine congrArg _ (funext fun a => Fin.ext ?_)
  match a with
  | ⟨0, _⟩ => show win3_1.index t (0 : Fin 2) * 1 + 1 * (y 0).val = (i 0).val; rw [e0, h0]; omega
  | ⟨1, _⟩ => show win3_1.index t (1 : Fin 2) * 64 + 1 * (y 1).val = (i 1).val; rw [e1, h1]; omega

/-- What point `t` writes back is block `t` of the reference's stage applied to the aggregated array as the region
    finds it and to the bias `b`, when the bias row the region finds is `b` re-laid as one row. -/
theorem flushed_eq (c : Dev nD) (b : Cert.Gcn.Arr Cert.ReferenceIdeal.S64)
    (hb : ∀ q : Fin 64, (V c main_v30 : S1x64.Idx → Elt Ideal .f32) (ix2 (0 : Fin 1) q) = b (ix1 q)) (t : Fin cfg3.N) :
    (dat3 V c).flushed 2 t = ((cfg3.win 2).blk t).view.read (Elt Ideal) (Cert.Gcn.biased (V c main_v29) b) := by
  show (cfg3.win 2).cut (grid3.coords t) ((dat3 V c).after 2 t) = _
  rw [after3_2]
  unfold out3_2
  rw [View.canon_unit_zero hz]
  simp only [View.ld_unit_zero (S := S1x64) hz, View.ld_unit_zero (S := S5000x64) hz]
  obtain ⟨-, -, -, -, e0, e1⟩ := idx_facts t
  funext j
  obtain ⟨p, q, rfl⟩ : ∃ (p : Fin 5000) (q : Fin 64), j = ix2 p q := ⟨j 0, j 1, eq_ix2 j⟩
  show k3_pay1 (iblk3 V c 1 t) (iblk3 V c 0 t) (ix2 p q) = Cert.Gcn.biased (V c main_v29) b (((cfg3.win 2).blk t).view.emb (ix2 p q))
  rw [block_entry, Cert.Gcn.biased_apply]
  have hp : p.val < 5000 := p.isLt
  refine congrArg₂ (· + ·) (rows_block V c t _ _ ?_ ?_) ?_
  · show win3_2.index t (0 : Fin 2) * 5000 + 1 * p.val = t.val * 5000 + p.val; rw [e0]; omega
  · show win3_2.index t (1 : Fin 2) * 64 + 1 * q.val = q.val; rw [e1]; omega
  · rw [bias_block V c t _ (ix2 (0 : Fin 1) q) rfl rfl, hb q]
    refine congrArg b (funext fun a => Fin.ext ?_)
    match a with
    | ⟨0, _⟩ => show q.val = win3_2.index t (1 : Fin 2) * 64 + 1 * q.val; rw [e1]; omega

/-! ## The blocks cover the result -/

/-- An entry is in point `t`'s block iff its row is one of the block's 5000 rows. -/
theorem mem_blk (t : Fin cfg3.N) (i : S50000x64.Idx) :
    i ∈ ((cfg3.win 2).blk t).view.set ↔ ∀ a : Fin 2, win3_2.index t a * S5000x64.size a ≤ (i a).val ∧ (i a).val < win3_2.index t a * S5000x64.size a + S5000x64.size a := by
  show i ∈ ((View.whole main_v31).slice (win3_2.rect t)).set ↔ _
  rw [View.set_slice_whole, Rect.mem_set_unit]
  exact Iff.rfl

/-- Row `r` of the result is written by point `r / 5000`. -/
theorem cover (i : S50000x64.Idx) :
    ∃ t : Fin cfg3.N, (cfg3.win 2).flush t = true ∧ i ∈ ((cfg3.win 2).blk t).view.set := by
  have hi0 : (i 0).val < 50000 := (i 0).isLt
  have hi1 : (i 1).val < 64 := (i 1).isLt
  have hN : cfg3.N = 10 := N_3
  let t : Fin cfg3.N := ⟨(i 0).val / 5000, by rw [hN]; omega⟩
  have ht : t.val = (i 0).val / 5000 := rfl
  obtain ⟨-, -, -, -, e0, e1⟩ := idx_facts t
  refine ⟨t, flush3_2 t, ?_⟩
  rw [mem_blk]
  intro a
  match a with
  | ⟨0, _⟩ => show win3_2.index t (0 : Fin 2) * 5000 ≤ (i 0).val ∧ (i 0).val < win3_2.index t (0 : Fin 2) * 5000 + 5000; rw [e0, ht]; omega
  | ⟨1, _⟩ => show win3_2.index t (1 : Fin 2) * 64 ≤ (i 1).val ∧ (i 1).val < win3_2.index t (1 : Fin 2) * 64 + 64; rw [e1]; omega

/-- THE REGION'S RESULT: after its 10 points the result array is the reference's stage of the aggregated array
    the region found and of the bias. -/
theorem final (c : Dev nD) (b : Cert.Gcn.Arr Cert.ReferenceIdeal.S64)
    (hb : ∀ q : Fin 64, (V c main_v30 : S1x64.Idx → Elt Ideal .f32) (ix2 (0 : Fin 1) q) = b (ix1 q)) :
    (dat3 V c).arrAt 2 cfg3.N = Cert.Gcn.biased (V c main_v29) b :=
  (dat3 V c).arrAt_eq_of_cover 2 (Cert.Gcn.biased (V c main_v29) b) (fun t _ => flushed_eq V c b hb t) cover

end Cert.KernelIdeal.Output

end
-- ==== Proof.Chain.lean ====
/-
  The idealized kernel program's result array, as the network of its argument arrays.

  The program's run is a fold over six segments (the generated `Gen.W0` … `Gen.W6`: the contents of every array
  at each boundary).  Read forwards from the launch memory:
    after region 0   the array %0  holds x · W₁;
    after stretch 1  %13 holds the aggregation of %0 over the edges, %14 the bias b₁ re-laid as one row;
    after region 1   %15 holds max (%13 + b₁, 0);
    after region 2   %16 holds %15 · W₂;
    after stretch 3  %29 holds the aggregation of %16 over the edges, %30 the bias b₂ re-laid as one row;
    after region 3   %31, the result, holds %29 + b₂;
  and no segment writes an argument array.  The two host stretches are the reference's own operations, so each is
  the specification's aggregation applied to what the stretch finds.
-/
import proofs.«148922_j12850542150061_1_alg».proof.Proof.Dense1
import proofs.«148922_j12850542150061_1_alg».proof.Proof.Dense2
import proofs.«148922_j12850542150061_1_alg».proof.Proof.Hidden
import proofs.«148922_j12850542150061_1_alg».proof.Proof.Output
import Idealize.ShloMosaic.Lib.StableHlo.Run
import Idealize.ShloMosaic.Lib.ValueLayout

set_option maxRecDepth 16384

noncomputable section

namespace Cert.KernelIdeal.Chain

open Idealize.ShloMosaic Idealize.ShloMosaic.TcCoe Idealize.SL.Sem Idealize.ShloMosaic.StableHlo
open Idealize.ShloMosaic.ValueIdx (ix1 ix2)
open Cert.KernelIdeal Cert.KernelIdeal.Gen

/-! ## The two host stretches, from any contents -/

section Stretches

variable (W : Valuation τ sig (Elt Ideal))

/-- The first stretch leaves in %13 the width-128 aggregation of what it finds in %0. -/
theorem stretch1_agg : after (hostOps1 (F := Ideal)) W (Proc.devRef .tc main_v13)
    = Cert.Gcn.aggregate128 (W (Proc.devRef .tc main_v0)) (W (Proc.devRef .tc main_arg5)) (W (Proc.devRef .tc main_arg6)) (W (Proc.devRef .tc main_arg7)) := by
  after_results; rfl

/-- … and in %14 the first bias re-laid as one row. -/
theorem stretch1_bias : after (hostOps1 (F := Ideal)) W (Proc.devRef .tc main_v14)
    = shapeCast S1x128 (W (Proc.devRef .tc main_arg2)) Facts₀.shapeCasts_S128_S1x128 := by
  after_results; rfl

/-- The second stretch leaves in %29 the width-64 aggregation of what it finds in %16. -/
theorem stretch3_agg : after (hostOps3 (F := Ideal)) W (Proc.devRef .tc main_v29)
    = Cert.Gcn.aggregate64 (W (Proc.devRef .tc main_v16)) (W (Proc.devRef .tc main_arg5)) (W (Proc.devRef .tc main_arg6)) (W (Proc.devRef .tc main_arg7)) := by
  after_results; rfl

/-- … and in %30 the second bias re-laid as one row. -/
theorem stretch3_bias : after (hostOps3 (F := Ideal)) W (Proc.devRef .tc main_v30)
    = shapeCast S1x64 (W (Proc.devRef .tc main_arg4)) Facts₀.shapeCasts_S64_S1x64 := by
  after_results; rfl

/-! Neither stretch writes an argument array. -/
theorem stretch1_keep3 : after (hostOps1 (F := Ideal)) W (Proc.devRef .tc main_arg3) = W (Proc.devRef .tc main_arg3) := by after_results
theorem stretch1_keep4 : after (hostOps1 (F := Ideal)) W (Proc.devRef .tc main_arg4) = W (Proc.devRef .tc main_arg4) := by after_results
theorem stretch1_keep5 : after (hostOps1 (F := Ideal)) W (Proc.devRef .tc main_arg5) = W (Proc.devRef .tc main_arg5) := by after_results
theorem stretch1_keep6 : after (hostOps1 (F := Ideal)) W (Proc.devRef .tc main_arg6) = W (Proc.devRef .tc main_arg6) := by after_results
theorem stretch1_keep7 : after (hostOps1 (F := Ideal)) W (Proc.devRef .tc main_arg7) = W (Proc.devRef .tc main_arg7) := by after_results
theorem stretch3_keep4 : after (hostOps3 (F := Ideal)) W (Proc.devRef .tc main_arg4) = W (Proc.devRef .tc main_arg4) := by after_results
theorem stretch3_keep5 : after (hostOps3 (F := Ideal)) W (Proc.devRef .tc main_arg5) = W (Proc.devRef .tc main_arg5) := by after_results
theorem stretch3_keep6 : after (hostOps3 (F := Ideal)) W (Proc.devRef .tc main_arg6) = W (Proc.devRef .tc main_arg6) := by after_results
theorem stretch3_keep7 : after (hostOps3 (F := Ideal)) W (Proc.devRef .tc main_arg7) = W (Proc.devRef .tc main_arg7) := by after_results

end Stretches

/-! ## The boundaries, in order -/

variable (m : (ℓ : Loc nD τ sig) → Buf (Elt Ideal) ℓ) (ρ : Dev nD → PrngReg)

/-- After region 0 an array the region does not touch is as launched. -/
theorem at1_keep (c : Dev nD) (b : Ref sig .tc) (hb : ∀ w, Pipeline.arrRef spec0 w ≠ b) :
    W1 m ρ c (Proc.devRef .tc b) = m ((c : Thread nD τ).loc b) :=
  W1_of_ne m ρ c b hb

/-- After region 0, %0 holds `x · W₁`. -/
theorem at1_dense (c : Dev nD) :
    W1 m ρ c (Proc.devRef .tc main_v0) = Cert.Gcn.dense1 (m ((c : Thread nD τ).loc main_arg0)) (m ((c : Thread nD τ).loc main_arg1)) :=
  (W1_arr m ρ c 2).trans (Dense1.final (V0 m ρ) c)

/-- After the first stretch, %13 holds the aggregation of `x · W₁`. -/
theorem at2_agg (c : Dev nD) :
    W2 m ρ c (Proc.devRef .tc main_v13) = Cert.Gcn.aggregate128 (Cert.Gcn.dense1 (m ((c : Thread nD τ).loc main_arg0)) (m ((c : Thread nD τ).loc main_arg1)))
      (m ((c : Thread nD τ).loc main_arg5)) (m ((c : Thread nD τ).loc main_arg6)) (m ((c : Thread nD τ).loc main_arg7)) := by
  show after (hostOps1 (F := Ideal)) (W1 m ρ c) (Proc.devRef .tc main_v13) = _
  rw [stretch1_agg, at1_dense, at1_keep m ρ c main_arg5 (by decide), at1_keep m ρ c main_arg6 (by decide), at1_keep m ρ c main_arg7 (by decide)]

/-- After the first stretch, %14 is the first bias as one row: its entry `(0, q)` is `b₁[q]`. -/
theorem at2_bias (c : Dev nD) (q : Fin 128) :
    (V2 m ρ c main_v14 : S1x128.Idx → Elt Ideal .f32) (ix2 (0 : Fin 1) q) = (m ((c : Thread nD τ).loc main_arg2)) (ix1 q) := by
  show after (hostOps1 (F := Ideal)) (W1 m ρ c) (Proc.devRef .tc main_v14) (ix2 (0 : Fin 1) q) = _
  rw [stretch1_bias, at1_keep m ρ c main_arg2 (by decide)]
  exact ValueIdx.shapeCast_a_1a_apply _ _ 0 q

theorem at3_keep3 (c : Dev nD) : W3 m ρ c (Proc.devRef .tc main_arg3) = (m ((c : Thread nD τ).loc main_arg3)) :=
  (W3_of_ne m ρ c main_arg3 (by decide)).trans ((stretch1_keep3 (W1 m ρ c)).trans (at1_keep m ρ c main_arg3 (by decide)))

theorem at3_keep4 (c : Dev nD) : W3 m ρ c (Proc.devRef .tc main_arg4) = (m ((c : Thread nD τ).loc main_arg4)) :=
  (W3_of_ne m ρ c main_arg4 (by decide)).trans ((stretch1_keep4 (W1 m ρ c)).trans (at1_keep m ρ c main_arg4 (by decide)))

theorem at3_keep5 (c : Dev nD) : W3 m ρ c (Proc.devRef .tc main_arg5) = (m ((c : Thread nD τ).loc main_arg5)) :=
  (W3_of_ne m ρ c main_arg5 (by decide)).trans ((stretch1_keep5 (W1 m ρ c)).trans (at1_keep m ρ c main_arg5 (by decide)))

theorem at3_keep6 (c : Dev nD) : W3 m ρ c (Proc.devRef .tc main_arg6) = (m ((c : Thread nD τ).loc main_arg6)) :=
  (W3_of_ne m ρ c main_arg6 (by decide)).trans ((stretch1_keep6 (W1 m ρ c)).trans (at1_keep m ρ c main_arg6 (by decide)))

theorem at3_keep7 (c : Dev nD) : W3 m ρ c (Proc.devRef .tc main_arg7) = (m ((c : Thread nD τ).loc main_arg7)) :=
  (W3_of_ne m ρ c main_arg7 (by decide)).trans ((stretch1_keep7 (W1 m ρ c)).trans (at1_keep m ρ c main_arg7 (by decide)))

/-- After region 1, %15 holds the hidden activation. -/
theorem at3_hidden (c : Dev nD) :
    W3 m ρ c (Proc.devRef .tc main_v15) = Cert.Gcn.hidden (Cert.Gcn.aggregate128 (Cert.Gcn.dense1 (m ((c : Thread nD τ).loc main_arg0)) (m ((c : Thread nD τ).loc main_arg1)))
      (m ((c : Thread nD τ).loc main_arg5)) (m ((c : Thread nD τ).loc main_arg6)) (m ((c : Thread nD τ).loc main_arg7))) (m ((c : Thread nD τ).loc main_arg2)) :=
  (W3_arr m ρ c 2).trans ((Hidden.final (V2 m ρ) c (m ((c : Thread nD τ).loc main_arg2)) (at2_bias m ρ c)).trans
    (congrArg (fun s => Cert.Gcn.hidden s (m ((c : Thread nD τ).loc main_arg2))) (at2_agg m ρ c)))

/-- After region 2, %16 holds the second dense layer of the hidden activation. -/
theorem at4_dense (c : Dev nD) :
    W4 m ρ c (Proc.devRef .tc main_v16) = Cert.Gcn.dense2 (Cert.Gcn.hidden (Cert.Gcn.aggregate128 (Cert.Gcn.dense1 (m ((c : Thread nD τ).loc main_arg0)) (m ((c : Thread nD τ).loc main_arg1)))
      (m ((c : Thread nD τ).loc main_arg5)) (m ((c : Thread nD τ).loc main_arg6)) (m ((c : Thread nD τ).loc main_arg7))) (m ((c : Thread nD τ).loc main_arg2))) (m ((c : Thread nD τ).loc main_arg3)) :=
  (W4_arr m ρ c 2).trans ((Dense2.final (V3 m ρ) c).trans
    (congrArg₂ Cert.Gcn.dense2 (at3_hidden m ρ c) (at3_keep3 m ρ c)))

theorem at4_keep4 (c : Dev nD) : W4 m ρ c (Proc.devRef .tc main_arg4) = (m ((c : Thread nD τ).loc main_arg4)) :=
  (W4_of_ne m ρ c main_arg4 (by decide)).trans (at3_keep4 m ρ c)

theorem at4_keep5 (c : Dev nD) : W4 m ρ c (Proc.devRef .tc main_arg5) = (m ((c : Thread nD τ).loc main_arg5)) :=
  (W4_of_ne m ρ c main_arg5 (by decide)).trans (at3_keep5 m ρ c)

theorem at4_keep6 (c : Dev nD) : W4 m ρ c (Proc.devRef .tc main_arg6) = (m ((c : Thread nD τ).loc main_arg6)) :=
  (W4_of_ne m ρ c main_arg6 (by decide)).trans (at3_keep6 m ρ c)

theorem at4_keep7 (c : Dev nD) : W4 m ρ c (Proc.devRef .tc main_arg7) = (m ((c : Thread nD τ).loc main_arg7)) :=
  (W4_of_ne m ρ c main_arg7 (by decide)).trans (at3_keep7 m ρ c)

/-- After the second stretch, %29 holds the aggregation of the second dense layer. -/
theorem at5_agg (c : Dev nD) :
    W5 m ρ c (Proc.devRef .tc main_v29) = Cert.Gcn.aggregate64 (Cert.Gcn.dense2 (Cert.Gcn.hidden (Cert.Gcn.aggregate128 (Cert.Gcn.dense1 (m ((c : Thread nD τ).loc main_arg0)) (m ((c : Thread nD τ).loc main_arg1)))
      (m ((c : Thread nD τ).loc main_arg5)) (m ((c : Thread nD τ).loc main_arg6)) (m ((c : Thread nD τ).loc main_arg7))) (m ((c : Thread nD τ).loc main_arg2))) (m ((c : Thread nD τ).loc main_arg3)))
      (m ((c : Thread nD τ).loc main_arg5)) (m ((c : Thread nD τ).loc main_arg6)) (m ((c : Thread nD τ).loc main_arg7)) := by
  show after (hostOps3 (F := Ideal)) (W4 m ρ c) (Proc.devRef .tc main_v29) = _
  rw [stretch3_agg, at4_dense, at4_keep5, at4_keep6, at4_keep7]

/-- After the second stretch, %30 is the second bias as one row: its entry `(0, q)` is `b₂[q]`. -/
theorem at5_bias (c : Dev nD) (q : Fin 64) :
    (V5 m ρ c main_v30 : S1x64.Idx → Elt Ideal .f32) (ix2 (0 : Fin 1) q) = (m ((c : Thread nD τ).loc main_arg4)) (ix1 q) := by
  show after (hostOps3 (F := Ideal)) (W4 m ρ c) (Proc.devRef .tc main_v30) (ix2 (0 : Fin 1) q) = _
  rw [stretch3_bias, at4_keep4]
  exact ValueIdx.shapeCast_a_1a_apply _ _ 0 q

/-- THE RESULT ARRAY after the run is the network of the argument arrays as launched. -/
theorem result (c : Dev nD) :
    W6 m ρ c (Proc.devRef .tc main_v31) = Cert.Gcn.net (m ((c : Thread nD τ).loc main_arg0)) (m ((c : Thread nD τ).loc main_arg1)) (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7)) :=
  (W6_arr m ρ c 2).trans ((Output.final (V5 m ρ) c (m ((c : Thread nD τ).loc main_arg4)) (at5_bias m ρ c)).trans
    (congrArg (fun s => Cert.Gcn.biased s (m ((c : Thread nD τ).loc main_arg4))) (at5_agg m ρ c)))

end Cert.KernelIdeal.Chain

end
-- ==== Proof.lean ====
/-
  A two-layer graph convolution, computed two ways, is one function of its inputs over the extended reals.

  Inputs: node features x [50000,512], weights W₁ [512,128], W₂ [128,64], biases b₁ [128], b₂ [64], and 800000
  weighted edges (weight, row, column).  The network is
      result = A (max (A (x · W₁) + b₁, 0) · W₂) + b₂,
  where A sums, into each row r, weight · (feature row of the edge's column) over the edges of row r.

  The reference program computes every stage on the host.  The kernel program computes the two matrix products and
  the two bias stages in four tiled kernel regions — a product 2000 rows at a time with its operands rounded to bf16
  on the way in, a bias stage 5000 rows at a time with the bias re-laid as one row — and the two aggregations on the
  host, with the reference's own operations.  Over the extended reals rounding to bf16 is the identity, a block of
  a product is the product's rows, and a tiled row-wise stage is the stage; so each region leaves the reference's
  stage of what it finds (Proof/Dense1, Hidden, Dense2, Output), each host stretch is the same aggregation on both
  sides, and the result arrays are the same composition (Proof/Chain, over the run of Proof/KernelRun).  No law of
  arithmetic beyond the sums' re-indexing is used, so the inputs' finiteness is never needed.

  The three frames are the generated ones (the reference's is its generated run with the result dropped); nothing of
  the kernel program was rewritten by idealization, so there is nothing to preserve.
-/
import proofs.«148922_j12850542150061_1_alg».proof.Defs
import proofs.«148922_j12850542150061_1_alg».proof.Proof.Gen.Kernel
import proofs.«148922_j12850542150061_1_alg».proof.Proof.Gen.Kernel.Skeleton
import proofs.«148922_j12850542150061_1_alg».proof.Proof.Gen.Kernel.Launch
import proofs.«148922_j12850542150061_1_alg».proof.Proof.Gen.Kernel.Points
import proofs.«148922_j12850542150061_1_alg».proof.Proof.Gen.Kernel.Frame
import proofs.«148922_j12850542150061_1_alg».proof.Proof.Gen.KernelIdeal
import proofs.«148922_j12850542150061_1_alg».proof.Proof.Gen.KernelIdeal.Skeleton
import proofs.«148922_j12850542150061_1_alg».proof.Proof.Gen.KernelIdeal.Launch
import proofs.«148922_j12850542150061_1_alg».proof.Proof.Gen.KernelIdeal.Points
import proofs.«148922_j12850542150061_1_alg».proof.Proof.Gen.KernelIdeal.Frame
import proofs.«148922_j12850542150061_1_alg».proof.Proof.Gen.ReferenceIdeal
import proofs.«148922_j12850542150061_1_alg».proof.Proof.Gen.Pre_finite_inputs
import proofs.«148922_j12850542150061_1_alg».proof.Proof.Gen.ReferenceIdeal.Run
import proofs.«148922_j12850542150061_1_alg».proof.Proof.Gen.ReferenceIdeal.Read
import proofs.«148922_j12850542150061_1_alg».proof.Proof.KernelRun
import proofs.«148922_j12850542150061_1_alg».proof.Proof.Chain
import Idealize.ShloMosaic.Adequacy
import Idealize.ShloMosaic.Init

noncomputable section

namespace Cert.Proof

open Idealize.ShloMosaic Idealize.SL.Sem

/-- The word-level kernel program runs and leaves its arguments: the generated frame. -/
theorem frame_kernel : Cert.frame_Kernel := fun m ρ _ => Cert.Kernel.Gen.frame m ρ

/-- The idealized kernel program runs and leaves its arguments: the generated frame. -/
theorem frame_kernelIdeal : Cert.frame_KernelIdeal := fun m ρ _ => Cert.KernelIdeal.Gen.frame m ρ

/-- The idealized reference runs and leaves its arguments: its generated run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs end with the network of the (agreeing) argument arrays in their result arrays: the
    kernel program by its run read boundary by boundary, the reference because its run's term is the network's
    stages composed. -/
theorem algebraic : Cert.algebraic_KernelIdeal_ReferenceIdeal := by
  intro m ρ m' ρ' _ hagree
  refine ⟨fun c => Cert.Gcn.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(Cert.KernelIdeal.Whole.result_of m ρ h c).trans (Cert.KernelIdeal.Chain.result m ρ c),
        Cert.KernelIdeal.Whole.args_of m ρ h c⟩)
      (Cert.KernelIdeal.Whole.run_buffers (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7⟩ := hagree c
    rw [e0, e1, e2, e3, e4, e5, e6, e7]
    rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
